-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S3x128x128 .f32) (main_arg3 : FVec F S3x128x128 .f32) (main_arg4 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1000x128 : Shape := ⟨2, ![1000, 128]⟩

abbrev nBuf : Space → Nat
  | .hbm => 69
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128x128, .f32⟩
  | .hbm, ⟨4, _⟩ => ⟨S3x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x128x128, .f32⟩
  | .hbm, ⟨23, _⟩ => ⟨S128x128, .f32⟩
  | .hbm, ⟨24, _⟩ => ⟨S1x128x128, .f32⟩
  | .hbm, ⟨25, _⟩ => ⟨S128x128, .f32⟩
  | .hbm, ⟨26, _⟩ => ⟨S1x128, .f32⟩
  | .hbm, ⟨27, _⟩ => ⟨S128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S1x128x128, .f32⟩
  | .hbm, ⟨43, _⟩ => ⟨S128x128, .f32⟩
  | .hbm, ⟨44, _⟩ => ⟨S1x128x128, .f32⟩
  | .hbm, ⟨45, _⟩ => ⟨S128x128, .f32⟩
  | .hbm, ⟨46, _⟩ => ⟨S1x128, .f32⟩
  | .hbm, ⟨47, _⟩ => ⟨S128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S1x128x128, .f32⟩
  | .hbm, ⟨63, _⟩ => ⟨S128x128, .f32⟩
  | .hbm, ⟨64, _⟩ => ⟨S1x128x128, .f32⟩
  | .hbm, ⟨65, _⟩ => ⟨S128x128, .f32⟩
  | .hbm, ⟨66, _⟩ => ⟨S1x128, .f32⟩
  | .hbm, ⟨67, _⟩ => ⟨S128, .f32⟩
  | .hbm, ⟨68, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S1000x128, .f32⟩
  | .local _ .vmem, ⟨26, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1000x128 : S1x128.Broadcasts S1000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S50000x128.size a
  hwx1_5 : ∀ i : grid1.Coords, EltTy.bits .f32 = 32 ∨ (Rect.block (s := S50000x128) S1000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S50000x128.size a
  hwx2_5 : ∀ i : grid2.Coords, EltTy.bits .f32 = 32 ∨ (Rect.block (s := S50000x128) S1000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v13) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128x128, .f32⟩
  | .hbm, ⟨4, _⟩ => ⟨S3x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x128x128, .f32⟩
  | .hbm, ⟨23, _⟩ => ⟨S128x128, .f32⟩
  | .hbm, ⟨24, _⟩ => ⟨S50000x128, .f32⟩
  | .hbm, ⟨25, _⟩ => ⟨S1x128x128, .f32⟩
  | .hbm, ⟨26, _⟩ => ⟨S128x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128x128, .f32⟩
  | .hbm, ⟨51, _⟩ => ⟨S128x128, .f32⟩
  | .hbm, ⟨52, _⟩ => ⟨S50000x128, .f32⟩
  | .hbm, ⟨53, _⟩ => ⟨S1x128x128, .f32⟩
  | .hbm, ⟨54, _⟩ => ⟨S128x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S1x128x128, .f32⟩
  | .hbm, ⟨79, _⟩ => ⟨S128x128, .f32⟩
  | .hbm, ⟨80, _⟩ => ⟨S50000x128, .f32⟩
  | .hbm, ⟨81, _⟩ => ⟨S1x128x128, .f32⟩
  | .hbm, ⟨82, _⟩ => ⟨S128x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S50000x128, .f32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_cst : Ref sig .tc := ⟨.hbm, 34, rfl⟩
abbrev main_call0_v0 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call1_cst : Ref sig .tc := ⟨.hbm, 62, rfl⟩
abbrev main_call1_v0 : Ref sig .tc := ⟨.hbm, 63, rfl⟩
abbrev main_v49 : Ref sig .tc := ⟨.hbm, 64, rfl⟩
abbrev main_c_4 : Ref sig .tc := ⟨.hbm, 65, rfl⟩
abbrev main_v50 : Ref sig .tc := ⟨.hbm, 66, rfl⟩
abbrev main_v51 : Ref sig .tc := ⟨.hbm, 67, rfl⟩
abbrev main_c_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run, with every buffer's final contents kept.

  @main is three pallas_calls among three stretches of host operations. Every weakly fair execution from a memory with
  zero counters terminates, without a fault, and every buffer of the TensorCore that lives for the whole program ends
  holding the contents at the last boundary of the program's fold: launch memory, then a stretch of host operations,
  then a region's write-backs, three times over. The argument arrays and the result array are among those buffers.
-/
import proofs.«179025_j37091337568256_1_alg».proof.Proof.Patched.KernelIdeal.Frame

set_option maxRecDepth 16384

noncomputable section

namespace Cert.GraphConv.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of each core at the
    last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result array and the five argument arrays read out: the result at the last boundary's
    contents, the arguments as launched. -/
theorem run_result : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v54 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩)
    (run_all m ρ)

end Cert.GraphConv.Run

end
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.KernelBody.lean ====
/-
  What one grid point of each of the three kernels computes, entry by entry.

  A point loads a block of 1000 rows of the aggregated features and of the node features, the two whole weight
  matrices and the bias row. Its result at row p, column q of the block is

      (Σₖ agg[p, k] · wrel[k, q]  +  Σₖ x[p, k] · wroot[k, q])  +  b[q]

  (each matrix product is accumulated into zeros, so it is just the sum; rounding the operands to a narrower float
  format is the identity on the extended reals; the bias row is recast as a 1 × 128 matrix and repeated down the 1000
  rows), and the first two kernels then take the maximum with the float zero. No law of arithmetic is used beyond
  0 + s = s, so nothing here asks the entries to be finite.
-/
import proofs.«179025_j37091337568256_1_alg».proof.Proof.Gen.KernelIdeal.Skeleton
import proofs.«179025_j37091337568256_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.GraphConv.Body

open Idealize.ShloMosaic Idealize.ShloMosaic.ValueIdx Cert.KernelIdeal Cert.KernelIdeal.Gen

/-- The kernels' one product shape: a 1000 × 128 block times a 128 × 128 matrix, columns against rows. -/
abbrev blockDot : DotDims S1000x128 S128x128 S1000x128 := dot_S1000x128_S128x128_S1000x128_1_0_0_1_n_n

theorem blockDot_l0 (i : S1000x128.Idx) (q : blockDot.contr.Idx) : (blockDot.lhsIdx i q 0).val = (i 0).val := by
  unfold DotDims.lhsIdx
  rw [dif_neg (show ¬(0 : Fin S1000x128.rank) ∈ blockDot.lhsBatch by decide),
    dif_pos (show (0 : Fin S1000x128.rank) ∈ blockDot.lhsNonContracting by decide)]
  rfl

theorem blockDot_l1 (i : S1000x128.Idx) (q : blockDot.contr.Idx) :
    (blockDot.lhsIdx i q 1).val = (q ⟨0, by decide⟩).val :=
  blockDot.lhsIdx_val_of_single rfl i q

theorem blockDot_r0 (i : S1000x128.Idx) (q : blockDot.contr.Idx) :
    (blockDot.rhsIdx i q 0).val = (q ⟨0, by decide⟩).val :=
  blockDot.rhsIdx_val_of_single rfl i q

theorem blockDot_r1 (i : S1000x128.Idx) (q : blockDot.contr.Idx) : (blockDot.rhsIdx i q 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- A block's product into zeros, at row p and column q, is the sum over the 128 feature columns. -/
theorem blockProduct_apply {φ₁ φ₂ : FTy} (a : FVec Ideal S1000x128 φ₁) (w : FVec Ideal S128x128 φ₂)
    (p : Fin 1000) (q : Fin 128) :
    matmul blockDot none a w (constant S1000x128 .f32 0x00000000#32) (ix2 p q)
      = ∑ k : Fin 128, a (ix2 p k) * w (ix2 k q) :=
  Cert.EdgeScore.Lib.matmul_zero_ix2_apply blockDot rfl rfl blockDot_l0 blockDot_l1 blockDot_r0 blockDot_r1 none a w p q

/-- The bias row, recast as 1 × 128 and repeated down the block's rows, reads the bias at the column. -/
theorem biasRows_apply (b : FVec Ideal S128 .f32) (h0 : S128.ShapeCasts S128) (h1 : S128.ShapeCasts S1x128)
    (h2 : S1x128.Broadcasts S1000x128) (p : Fin 1000) (q : Fin 128) :
    broadcastTo S1000x128 (shapeCast S1x128 (shapeCast S128 b h0) h1) h2 (ix2 p q) = b (ix1 q) := by
  rw [broadcastTo_1b_ab_apply, shapeCast_a_1a_apply, shapeCast_self]

/-- The entry of a point's result before the rectifier, from its five loaded blocks. -/
def pointEntry (x0 x1 : Vec Ideal S1000x128 .f32) (x2 x3 : Vec Ideal S128x128 .f32) (x4 : Vec Ideal S128 .f32)
    (p : Fin 1000) (q : Fin 128) : EReal :=
  (∑ k : Fin 128, x0 (ix2 p k) * x2 (ix2 k q) + ∑ k : Fin 128, x1 (ix2 p k) * x3 (ix2 k q)) + x4 (ix1 q)

/-- The first kernel's stored value at (p, q). -/
theorem pay0_apply (x0 x1 : Vec Ideal S1000x128 .f32) (x2 x3 : Vec Ideal S128x128 .f32) (x4 : Vec Ideal S128 .f32)
    (p : Fin 1000) (q : Fin 128) :
    k0_pay1 (F := Ideal) x0 x1 x2 x3 x4 (ix2 p q) = max (pointEntry x0 x1 x2 x3 x4 p q) (Ideal.ofBits .f32 0x00000000#32) := by
  unfold k0_pay1 pointEntry
  simp only [maximumf_apply, addf_apply, broadcast_apply]
  rw [blockProduct_apply, blockProduct_apply, biasRows_apply]
  simp only [truncf_apply, shapeCast_self]
  rfl

/-- The second kernel's stored value at (p, q). -/
theorem pay1_apply (x0 x1 : Vec Ideal S1000x128 .f32) (x2 x3 : Vec Ideal S128x128 .f32) (x4 : Vec Ideal S128 .f32)
    (p : Fin 1000) (q : Fin 128) :
    k1_pay1 (F := Ideal) x0 x1 x2 x3 x4 (ix2 p q) = max (pointEntry x0 x1 x2 x3 x4 p q) (Ideal.ofBits .f32 0x00000000#32) := by
  unfold k1_pay1 pointEntry
  simp only [maximumf_apply, addf_apply, broadcast_apply]
  rw [blockProduct_apply, blockProduct_apply, biasRows_apply]
  simp only [truncf_apply, shapeCast_self]
  rfl

/-- The third kernel's stored value at (p, q): no rectifier. -/
theorem pay2_apply (x0 x1 : Vec Ideal S1000x128 .f32) (x2 x3 : Vec Ideal S128x128 .f32) (x4 : Vec Ideal S128 .f32)
    (p : Fin 1000) (q : Fin 128) :
    k2_pay1 (F := Ideal) x0 x1 x2 x3 x4 (ix2 p q) = pointEntry x0 x1 x2 x3 x4 p q := by
  unfold k2_pay1 pointEntry
  simp only [addf_apply]
  rw [blockProduct_apply, blockProduct_apply, biasRows_apply]
  simp only [truncf_apply, shapeCast_self]

end Cert.GraphConv.Body

end
-- ==== Proof.Layer.lean ====
/-
  One dense layer of the graph convolution, as a function of its five arrays.

  A layer takes the aggregated neighbour features `agg` and the node features `x` (both 50000 × 128), two weight
  matrices (128 × 128) and a bias row (128). Entry (p, q) of its output before the rectifier is

      (Σₖ agg[p, k] · wrel[k, q]  +  Σₖ x[p, k] · wroot[k, q])  +  b[q],

  the two sums over the 128 feature columns, grouped exactly in this way. A rectified layer takes the maximum of that
  with the float zero. Over the extended reals a sum over a finite index type does not depend on any order or tiling, so
  this one function is what a row-blocked matrix product and a whole matrix product both compute.
-/
import Idealize.ShloMosaic.PureOps.Ideal
import Idealize.ShloMosaic.Lib.ValueIdx

noncomputable section

open scoped BigOperators

namespace Cert.GraphConv

open Idealize.ShloMosaic Idealize.ShloMosaic.ValueIdx

/-- Node features: 50000 nodes, 128 columns. -/
abbrev Nodes : Shape := ⟨2, ![50000, 128]⟩
/-- One layer's weight matrix. -/
abbrev Wt : Shape := ⟨2, ![128, 128]⟩
/-- One layer's bias row. -/
abbrev Bias : Shape := ⟨1, ![128]⟩

/-- Entry (p, q) of a layer before the rectifier. -/
def entry (agg x : FVec Ideal Nodes .f32) (wrel wroot : FVec Ideal Wt .f32) (b : FVec Ideal Bias .f32)
    (p : Fin 50000) (q : Fin 128) : EReal :=
  (∑ k : Fin 128, agg (ix2 p k) * wrel (ix2 k q) + ∑ k : Fin 128, x (ix2 p k) * wroot (ix2 k q)) + b (ix1 q)

/-- The last layer: no rectifier. -/
def dense (agg x : FVec Ideal Nodes .f32) (wrel wroot : FVec Ideal Wt .f32) (b : FVec Ideal Bias .f32) :
    FVec Ideal Nodes .f32 :=
  fun i => entry agg x wrel wroot b (i 0) (i 1)

/-- A hidden layer: the maximum with the float zero. -/
def denseRelu (agg x : FVec Ideal Nodes .f32) (wrel wroot : FVec Ideal Wt .f32) (b : FVec Ideal Bias .f32) :
    FVec Ideal Nodes .f32 :=
  fun i => max (entry agg x wrel wroot b (i 0) (i 1)) (Ideal.ofBits .f32 0x00000000#32)

theorem dense_ix2 (agg x : FVec Ideal Nodes .f32) (wrel wroot : FVec Ideal Wt .f32) (b : FVec Ideal Bias .f32)
    (p : Fin 50000) (q : Fin 128) : dense agg x wrel wroot b (ix2 p q) = entry agg x wrel wroot b p q := rfl

theorem denseRelu_ix2 (agg x : FVec Ideal Nodes .f32) (wrel wroot : FVec Ideal Wt .f32) (b : FVec Ideal Bias .f32)
    (p : Fin 50000) (q : Fin 128) :
    denseRelu agg x wrel wroot b (ix2 p q) = max (entry agg x wrel wroot b p q) (Ideal.ofBits .f32 0x00000000#32) := rfl

end Cert.GraphConv

end
-- ==== Proof.PointLayer.lean ====
/-
  A grid point's entries are the layer's entries.

  Point t of a kernel loads rows r0 … r0 + 999 of the aggregated features and of the node features (r0 = 1000 · t) and
  the whole weight matrices and bias row. So its entry at block row p, column q is the layer's entry at row r0 + p,
  column q: the two sums range over the same 128 products. This is only a renaming of rows; no arithmetic is involved.
-/
import proofs.«179025_j37091337568256_1_alg».proof.Proof.KernelBody
import proofs.«179025_j37091337568256_1_alg».proof.Proof.Layer

noncomputable section

open scoped BigOperators

namespace Cert.GraphConv.Body

open Idealize.ShloMosaic Idealize.ShloMosaic.ValueIdx Cert.KernelIdeal Cert.GraphConv

/-- With the two row blocks read at row offset `r0` and the small arrays whole, a point's entry is the layer's. -/
theorem pointEntry_eq_entry (x0 x1 : Vec Ideal S1000x128 .f32) (x2 x3 : Vec Ideal S128x128 .f32) (x4 : Vec Ideal S128 .f32)
    (A X : FVec Ideal Nodes .f32) (Wr Wo : FVec Ideal Wt .f32) (B : FVec Ideal Bias .f32)
    (r0 : Nat) (hr0 : r0 + 1000 ≤ 50000)
    (h0 : ∀ (p : Fin 1000) (k : Fin 128), x0 (ix2 p k) = A (ix2 (⟨r0 + p.val, by omega⟩ : Fin 50000) k))
    (h1 : ∀ (p : Fin 1000) (k : Fin 128), x1 (ix2 p k) = X (ix2 (⟨r0 + p.val, by omega⟩ : Fin 50000) k))
    (h2 : ∀ (k q : Fin 128), x2 (ix2 k q) = Wr (ix2 k q)) (h3 : ∀ (k q : Fin 128), x3 (ix2 k q) = Wo (ix2 k q))
    (h4 : ∀ q : Fin 128, x4 (ix1 q) = B (ix1 q)) (p : Fin 1000) (q : Fin 128) :
    pointEntry x0 x1 x2 x3 x4 p q = entry A X Wr Wo B (⟨r0 + p.val, by omega⟩ : Fin 50000) q := by
  have e0 : ∑ k : Fin 128, x0 (ix2 p k) * x2 (ix2 k q)
      = ∑ k : Fin 128, A (ix2 (⟨r0 + p.val, by omega⟩ : Fin 50000) k) * Wr (ix2 k q) :=
    Finset.sum_congr rfl fun k _ => by rw [h0 p k, h2 k q]
  have e1 : ∑ k : Fin 128, x1 (ix2 p k) * x3 (ix2 k q)
      = ∑ k : Fin 128, X (ix2 (⟨r0 + p.val, by omega⟩ : Fin 50000) k) * Wo (ix2 k q) :=
    Finset.sum_congr rfl fun k _ => by rw [h1 p k, h3 k q]
  unfold pointEntry entry
  rw [e0, e1, h4 q]

end Cert.GraphConv.Body

end
-- ==== Proof.Region0.lean ====
/-
  Region 0's result array is one layer of its entry arrays.

  The pallas_call walks 50 grid points; point t reads rows 1000·t … 1000·t + 999 of the aggregated features and of the
  node features and the whole weight matrices and bias row, and writes back rows 1000·t … 1000·t + 999 of the result.
  What it writes is (rectified) the layer's entries on those rows; every row of the result lies in exactly the block of point
  (row / 1000); so after the last point the result array is the layer of the arrays the region found, whatever
  they were (the statement is about any entry contents `V`).
-/
import proofs.«179025_j37091337568256_1_alg».proof.Proof.Patched.KernelIdeal.Frame
import proofs.«179025_j37091337568256_1_alg».proof.Proof.PointLayer
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.GraphConv.Region0

open Cert.KernelIdeal Cert.KernelIdeal.Gen Cert.KernelIdeal.GenP Cert.GraphConv Cert.GraphConv.Body

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The index maps over the grid: the three row-blocked windows sit at block row t, column block 0; the weight
    matrices and the bias at block 0; and there are 50 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ t.val < 50 :=
  (by decide +kernel : ∀ t : Fin grid0.N, _)

/-- Window 0's block at point t is rows 1000·t … of the aggregated features. -/
theorem agg_rows (c : Dev nD) (t : Fin cfg0.N) (p : Fin 1000) (k : Fin 128) (h : 1000 * t.val + p.val < 50000) :
    (iblk0 V c 0 t : Vec Ideal S1000x128 .f32) (ix2 p k)
      = (V c main_v13 : S50000x128.Idx → EReal) (ix2 (⟨1000 * t.val + p.val, h⟩ : Fin 50000) k) := by
  obtain ⟨e0, e1, -⟩ := idx_facts t
  unfold iblk0
  rw [View.read_apply]
  show V c main_v13 (((cfg0.win 0).blk t).view.emb (ix2 p k)) = V c main_v13 _
  refine congrArg (V c main_v13) (funext fun a => Fin.ext ?_)
  match a with
  | ⟨0, _⟩ => show win0_0.index t (0 : Fin 2) * 1000 + 1 * p.val = 1000 * t.val + p.val; rw [e0]; omega
  | ⟨1, _⟩ => show win0_0.index t (1 : Fin 2) * 128 + 1 * k.val = k.val; rw [e1]; omega

/-- Window 1's block at point t is rows 1000·t … of the node features. -/
theorem x_rows (c : Dev nD) (t : Fin cfg0.N) (p : Fin 1000) (k : Fin 128) (h : 1000 * t.val + p.val < 50000) :
    (iblk0 V c 1 t : Vec Ideal S1000x128 .f32) (ix2 p k)
      = (V c main_arg0 : S50000x128.Idx → EReal) (ix2 (⟨1000 * t.val + p.val, h⟩ : Fin 50000) k) := by
  obtain ⟨-, -, e0, e1, -⟩ := idx_facts t
  unfold iblk0
  rw [View.read_apply]
  show V c main_arg0 (((cfg0.win 1).blk t).view.emb (ix2 p k)) = V c main_arg0 _
  refine congrArg (V c main_arg0) (funext fun a => Fin.ext ?_)
  match a with
  | ⟨0, _⟩ => show win0_1.index t (0 : Fin 2) * 1000 + 1 * p.val = 1000 * t.val + p.val; rw [e0]; omega
  | ⟨1, _⟩ => show win0_1.index t (1 : Fin 2) * 128 + 1 * k.val = k.val; rw [e1]; omega

/-- Window 2's block is the whole neighbour weight matrix at every point. -/
theorem wrel_whole (c : Dev nD) (t : Fin cfg0.N) (k q : Fin 128) :
    (iblk0 V c 2 t : Vec Ideal S128x128 .f32) (ix2 k q) = (V c main_v15 : S128x128.Idx → EReal) (ix2 k q) := by
  obtain ⟨-, -, -, -, e0, e1, -⟩ := idx_facts t
  unfold iblk0
  rw [View.read_apply]
  show V c main_v15 (((cfg0.win 2).blk t).view.emb (ix2 k q)) = V c main_v15 _
  refine congrArg (V c main_v15) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Window 3's block is the whole root weight matrix at every point. -/
theorem wroot_whole (c : Dev nD) (t : Fin cfg0.N) (k q : Fin 128) :
    (iblk0 V c 3 t : Vec Ideal S128x128 .f32) (ix2 k q) = (V c main_v17 : S128x128.Idx → EReal) (ix2 k q) := by
  obtain ⟨-, -, -, -, -, -, e0, e1, -⟩ := idx_facts t
  unfold iblk0
  rw [View.read_apply]
  show V c main_v17 (((cfg0.win 3).blk t).view.emb (ix2 k q)) = V c main_v17 _
  refine congrArg (V c main_v17) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Window 4's block is the whole bias row at every point. -/
theorem bias_whole (c : Dev nD) (t : Fin cfg0.N) (q : Fin 128) :
    (iblk0 V c 4 t : Vec Ideal S128 .f32) (ix1 q) = (V c main_v19 : S128.Idx → EReal) (ix1 q) := by
  obtain ⟨-, -, -, -, -, -, -, -, e0, -⟩ := idx_facts t
  unfold iblk0
  rw [View.read_apply]
  show V c main_v19 (((cfg0.win 4).blk t).view.emb (ix1 q)) = V c main_v19 _
  refine congrArg (V c main_v19) (funext fun a => Fin.ext ?_)
  match a with
  | ⟨0, _⟩ => show win0_4.index t (0 : Fin 1) * 128 + 1 * q.val = q.val; rw [e0]; omega

/-- The stored value at a block index is the layer at the array index it is written to, for blocks that are rows of
    the arrays at row offset `r0`. -/
theorem stored_eq_layer (x0 x1 : Vec Ideal S1000x128 .f32) (x2 x3 : Vec Ideal S128x128 .f32) (x4 : Vec Ideal S128 .f32)
    (A X : FVec Ideal Nodes .f32) (Wr Wo : FVec Ideal Wt .f32) (B : FVec Ideal Bias .f32)
    (r0 : Nat) (hr0 : r0 + 1000 ≤ 50000)
    (h0 : ∀ (p : Fin 1000) (k : Fin 128), x0 (ix2 p k) = A (ix2 (⟨r0 + p.val, by omega⟩ : Fin 50000) k))
    (h1 : ∀ (p : Fin 1000) (k : Fin 128), x1 (ix2 p k) = X (ix2 (⟨r0 + p.val, by omega⟩ : Fin 50000) k))
    (h2 : ∀ (k q : Fin 128), x2 (ix2 k q) = Wr (ix2 k q)) (h3 : ∀ (k q : Fin 128), x3 (ix2 k q) = Wo (ix2 k q))
    (h4 : ∀ q : Fin 128, x4 (ix1 q) = B (ix1 q))
    (j : S1000x128.Idx) (i : Nodes.Idx) (hi0 : (i 0).val = r0 + (j 0).val) (hi1 : (i 1).val = (j 1).val) :
    k0_pay1 (F := Ideal) x0 x1 x2 x3 x4 j = denseRelu A X Wr Wo B i := by
  obtain ⟨p, q, rfl⟩ : ∃ (p : Fin 1000) (q : Fin 128), j = ix2 p q := ⟨j 0, j 1, eq_ix2 j⟩
  have hb : r0 + p.val < 50000 := by have := p.isLt; omega
  have hi0' : (i 0).val = r0 + p.val := hi0
  have hi1' : (i 1).val = q.val := hi1
  have hi : i = ix2 (⟨r0 + p.val, hb⟩ : Fin 50000) q :=
    (eq_ix2 i).trans (congrArg₂ ix2 (Fin.ext hi0') (Fin.ext hi1'))
  rw [hi, pay0_apply, denseRelu_ix2, pointEntry_eq_entry x0 x1 x2 x3 x4 A X Wr Wo B r0 hr0 h0 h1 h2 h3 h4 p q]

/-- What point t writes back is block t of the layer of the arrays the region found. -/
theorem flushed_eq (c : Dev nD) (t : Fin cfg0.N) :
    (dat0 V c).flushed 5 t = ((cfg0.win 5).blk t).view.read (Elt Ideal)
      (denseRelu (V c main_v13) (V c main_arg0) (V c main_v15) (V c main_v17) (V c main_v19)) := by
  show (cfg0.win 5).cut (grid0.coords t) ((dat0 V c).after 5 t) = _
  rw [after0_5]
  unfold out0_5
  rw [View.canon_unit_zero off2]
  simp only [View.ld_unit_zero (S := S1000x128) off2, View.ld_unit_zero (S := S128x128) off2, View.ld_unit_zero (S := S128) off1]
  obtain ⟨-, -, -, -, -, -, -, -, -, e0, e1, ht⟩ := idx_facts t
  funext j
  show k0_pay1 (F := Ideal) (iblk0 V c 0 t) (iblk0 V c 1 t) (iblk0 V c 2 t) (iblk0 V c 3 t) (iblk0 V c 4 t) j
    = denseRelu (V c main_v13) (V c main_arg0) (V c main_v15) (V c main_v17) (V c main_v19) (((cfg0.win 5).blk t).view.emb j)
  refine stored_eq_layer (iblk0 V c 0 t) (iblk0 V c 1 t) (iblk0 V c 2 t) (iblk0 V c 3 t) (iblk0 V c 4 t)
    (V c main_v13) (V c main_arg0) (V c main_v15) (V c main_v17) (V c main_v19) (1000 * t.val) (by omega)
    (fun p k => agg_rows V c t p k (by omega)) (fun p k => x_rows V c t p k (by omega))
    (fun k q => wrel_whole V c t k q) (fun k q => wroot_whole V c t k q) (fun q => bias_whole V c t q)
    j (((cfg0.win 5).blk t).view.emb j) ?_ ?_
  · show win0_5.index t (0 : Fin 2) * 1000 + 1 * (j 0).val = 1000 * t.val + (j 0).val
    rw [e0]; omega
  · show win0_5.index t (1 : Fin 2) * 128 + 1 * (j 1).val = (j 1).val
    rw [e1]; omega

/-- An index of the result array is in point t's block iff each coordinate is in the block's range on its axis. -/
theorem mem_blk (t : Fin cfg0.N) (i : S50000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v20).slice (win0_5.rect t)).set ↔ _
  rw [View.set_slice_whole, Rect.mem_set_unit]
  exact Iff.rfl

/-- Every index of the result array is in the block of the point (row / 1000), which writes its block back. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 50 := N_0
  have hlt : (i 0).val / 1000 < cfg0.N := by rw [hN]; omega
  obtain ⟨-, -, -, -, -, -, -, -, -, e0, e1, -⟩ := idx_facts ⟨(i 0).val / 1000, hlt⟩
  refine ⟨⟨(i 0).val / 1000, hlt⟩, flush0_5 _, ?_⟩
  rw [mem_blk]
  intro a
  match a with
  | ⟨0, _⟩ =>
    show win0_5.index ⟨(i 0).val / 1000, hlt⟩ (0 : Fin 2) * 1000 ≤ (i 0).val
      ∧ (i 0).val < win0_5.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win0_5.index ⟨(i 0).val / 1000, hlt⟩ (1 : Fin 2) * 128 ≤ (i 1).val
      ∧ (i 1).val < win0_5.index ⟨(i 0).val / 1000, hlt⟩ (1 : Fin 2) * 128 + 128
    rw [e1]; omega

/-- After the last point the result array is the layer of the arrays the region found. -/
theorem result_eq (c : Dev nD) :
    (dat0 V c).arrAt 5 cfg0.N = denseRelu (V c main_v13) (V c main_arg0) (V c main_v15) (V c main_v17) (V c main_v19) :=
  (dat0 V c).arrAt_eq_of_cover 5 (denseRelu (V c main_v13) (V c main_arg0) (V c main_v15) (V c main_v17) (V c main_v19))
    (fun t _ => flushed_eq V c t) covered

end Cert.GraphConv.Region0

end
-- ==== Proof.Region1.lean ====
/-
  Region 1's result array is one layer of its entry arrays.

  The pallas_call walks 50 grid points; point t reads rows 1000·t … 1000·t + 999 of the aggregated features and of the
  node features and the whole weight matrices and bias row, and writes back rows 1000·t … 1000·t + 999 of the result.
  What it writes is (rectified) the layer's entries on those rows; every row of the result lies in exactly the block of point
  (row / 1000); so after the last point the result array is the layer of the arrays the region found, whatever
  they were (the statement is about any entry contents `V`).
-/
import proofs.«179025_j37091337568256_1_alg».proof.Proof.Patched.KernelIdeal.Frame
import proofs.«179025_j37091337568256_1_alg».proof.Proof.PointLayer
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.GraphConv.Region1

open Cert.KernelIdeal Cert.KernelIdeal.Gen Cert.KernelIdeal.GenP Cert.GraphConv Cert.GraphConv.Body

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The index maps over the grid: the three row-blocked windows sit at block row t, column block 0; the weight
    matrices and the bias at block 0; and there are 50 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ t.val < 50 :=
  (by decide +kernel : ∀ t : Fin grid1.N, _)

/-- Window 0's block at point t is rows 1000·t … of the aggregated features. -/
theorem agg_rows (c : Dev nD) (t : Fin cfg1.N) (p : Fin 1000) (k : Fin 128) (h : 1000 * t.val + p.val < 50000) :
    (iblk1 V c 0 t : Vec Ideal S1000x128 .f32) (ix2 p k)
      = (V c main_v30 : S50000x128.Idx → EReal) (ix2 (⟨1000 * t.val + p.val, h⟩ : Fin 50000) k) := by
  obtain ⟨e0, e1, -⟩ := idx_facts t
  unfold iblk1
  rw [View.read_apply]
  show V c main_v30 (((cfg1.win 0).blk t).view.emb (ix2 p k)) = V c main_v30 _
  refine congrArg (V c main_v30) (funext fun a => Fin.ext ?_)
  match a with
  | ⟨0, _⟩ => show win1_0.index t (0 : Fin 2) * 1000 + 1 * p.val = 1000 * t.val + p.val; rw [e0]; omega
  | ⟨1, _⟩ => show win1_0.index t (1 : Fin 2) * 128 + 1 * k.val = k.val; rw [e1]; omega

/-- Window 1's block at point t is rows 1000·t … of the node features. -/
theorem x_rows (c : Dev nD) (t : Fin cfg1.N) (p : Fin 1000) (k : Fin 128) (h : 1000 * t.val + p.val < 50000) :
    (iblk1 V c 1 t : Vec Ideal S1000x128 .f32) (ix2 p k)
      = (V c main_v20 : S50000x128.Idx → EReal) (ix2 (⟨1000 * t.val + p.val, h⟩ : Fin 50000) k) := by
  obtain ⟨-, -, e0, e1, -⟩ := idx_facts t
  unfold iblk1
  rw [View.read_apply]
  show V c main_v20 (((cfg1.win 1).blk t).view.emb (ix2 p k)) = V c main_v20 _
  refine congrArg (V c main_v20) (funext fun a => Fin.ext ?_)
  match a with
  | ⟨0, _⟩ => show win1_1.index t (0 : Fin 2) * 1000 + 1 * p.val = 1000 * t.val + p.val; rw [e0]; omega
  | ⟨1, _⟩ => show win1_1.index t (1 : Fin 2) * 128 + 1 * k.val = k.val; rw [e1]; omega

/-- Window 2's block is the whole neighbour weight matrix at every point. -/
theorem wrel_whole (c : Dev nD) (t : Fin cfg1.N) (k q : Fin 128) :
    (iblk1 V c 2 t : Vec Ideal S128x128 .f32) (ix2 k q) = (V c main_v32 : S128x128.Idx → EReal) (ix2 k q) := by
  obtain ⟨-, -, -, -, e0, e1, -⟩ := idx_facts t
  unfold iblk1
  rw [View.read_apply]
  show V c main_v32 (((cfg1.win 2).blk t).view.emb (ix2 k q)) = V c main_v32 _
  refine congrArg (V c main_v32) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- Window 3's block is the whole root weight matrix at every point. -/
theorem wroot_whole (c : Dev nD) (t : Fin cfg1.N) (k q : Fin 128) :
    (iblk1 V c 3 t : Vec Ideal S128x128 .f32) (ix2 k q) = (V c main_v34 : S128x128.Idx → EReal) (ix2 k q) := by
  obtain ⟨-, -, -, -, -, -, e0, e1, -⟩ := idx_facts t
  unfold iblk1
  rw [View.read_apply]
  show V c main_v34 (((cfg1.win 3).blk t).view.emb (ix2 k q)) = V c main_v34 _
  refine congrArg (V c main_v34) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- Window 4's block is the whole bias row at every point. -/
theorem bias_whole (c : Dev nD) (t : Fin cfg1.N) (q : Fin 128) :
    (iblk1 V c 4 t : Vec Ideal S128 .f32) (ix1 q) = (V c main_v36 : S128.Idx → EReal) (ix1 q) := by
  obtain ⟨-, -, -, -, -, -, -, -, e0, -⟩ := idx_facts t
  unfold iblk1
  rw [View.read_apply]
  show V c main_v36 (((cfg1.win 4).blk t).view.emb (ix1 q)) = V c main_v36 _
  refine congrArg (V c main_v36) (funext fun a => Fin.ext ?_)
  match a with
  | ⟨0, _⟩ => show win1_4.index t (0 : Fin 1) * 128 + 1 * q.val = q.val; rw [e0]; omega

/-- The stored value at a block index is the layer at the array index it is written to, for blocks that are rows of
    the arrays at row offset `r0`. -/
theorem stored_eq_layer (x0 x1 : Vec Ideal S1000x128 .f32) (x2 x3 : Vec Ideal S128x128 .f32) (x4 : Vec Ideal S128 .f32)
    (A X : FVec Ideal Nodes .f32) (Wr Wo : FVec Ideal Wt .f32) (B : FVec Ideal Bias .f32)
    (r0 : Nat) (hr0 : r0 + 1000 ≤ 50000)
    (h0 : ∀ (p : Fin 1000) (k : Fin 128), x0 (ix2 p k) = A (ix2 (⟨r0 + p.val, by omega⟩ : Fin 50000) k))
    (h1 : ∀ (p : Fin 1000) (k : Fin 128), x1 (ix2 p k) = X (ix2 (⟨r0 + p.val, by omega⟩ : Fin 50000) k))
    (h2 : ∀ (k q : Fin 128), x2 (ix2 k q) = Wr (ix2 k q)) (h3 : ∀ (k q : Fin 128), x3 (ix2 k q) = Wo (ix2 k q))
    (h4 : ∀ q : Fin 128, x4 (ix1 q) = B (ix1 q))
    (j : S1000x128.Idx) (i : Nodes.Idx) (hi0 : (i 0).val = r0 + (j 0).val) (hi1 : (i 1).val = (j 1).val) :
    k1_pay1 (F := Ideal) x0 x1 x2 x3 x4 j = denseRelu A X Wr Wo B i := by
  obtain ⟨p, q, rfl⟩ : ∃ (p : Fin 1000) (q : Fin 128), j = ix2 p q := ⟨j 0, j 1, eq_ix2 j⟩
  have hb : r0 + p.val < 50000 := by have := p.isLt; omega
  have hi0' : (i 0).val = r0 + p.val := hi0
  have hi1' : (i 1).val = q.val := hi1
  have hi : i = ix2 (⟨r0 + p.val, hb⟩ : Fin 50000) q :=
    (eq_ix2 i).trans (congrArg₂ ix2 (Fin.ext hi0') (Fin.ext hi1'))
  rw [hi, pay1_apply, denseRelu_ix2, pointEntry_eq_entry x0 x1 x2 x3 x4 A X Wr Wo B r0 hr0 h0 h1 h2 h3 h4 p q]

/-- What point t writes back is block t of the layer of the arrays the region found. -/
theorem flushed_eq (c : Dev nD) (t : Fin cfg1.N) :
    (dat1 V c).flushed 5 t = ((cfg1.win 5).blk t).view.read (Elt Ideal)
      (denseRelu (V c main_v30) (V c main_v20) (V c main_v32) (V c main_v34) (V c main_v36)) := by
  show (cfg1.win 5).cut (grid1.coords t) ((dat1 V c).after 5 t) = _
  rw [after1_5]
  unfold out1_5
  rw [View.canon_unit_zero off2]
  simp only [View.ld_unit_zero (S := S1000x128) off2, View.ld_unit_zero (S := S128x128) off2, View.ld_unit_zero (S := S128) off1]
  obtain ⟨-, -, -, -, -, -, -, -, -, e0, e1, ht⟩ := idx_facts t
  funext j
  show k1_pay1 (F := Ideal) (iblk1 V c 0 t) (iblk1 V c 1 t) (iblk1 V c 2 t) (iblk1 V c 3 t) (iblk1 V c 4 t) j
    = denseRelu (V c main_v30) (V c main_v20) (V c main_v32) (V c main_v34) (V c main_v36) (((cfg1.win 5).blk t).view.emb j)
  refine stored_eq_layer (iblk1 V c 0 t) (iblk1 V c 1 t) (iblk1 V c 2 t) (iblk1 V c 3 t) (iblk1 V c 4 t)
    (V c main_v30) (V c main_v20) (V c main_v32) (V c main_v34) (V c main_v36) (1000 * t.val) (by omega)
    (fun p k => agg_rows V c t p k (by omega)) (fun p k => x_rows V c t p k (by omega))
    (fun k q => wrel_whole V c t k q) (fun k q => wroot_whole V c t k q) (fun q => bias_whole V c t q)
    j (((cfg1.win 5).blk t).view.emb j) ?_ ?_
  · show win1_5.index t (0 : Fin 2) * 1000 + 1 * (j 0).val = 1000 * t.val + (j 0).val
    rw [e0]; omega
  · show win1_5.index t (1 : Fin 2) * 128 + 1 * (j 1).val = (j 1).val
    rw [e1]; omega

/-- An index of the result array is in point t's block iff each coordinate is in the block's range on its axis. -/
theorem mem_blk (t : Fin cfg1.N) (i : S50000x128.Idx) :
    i ∈ ((cfg1.win 5).blk t).view.set ↔ ∀ a : Fin 2, win1_5.index t a * S1000x128.size a ≤ (i a).val
      ∧ (i a).val < win1_5.index t a * S1000x128.size a + S1000x128.size a := by
  show i ∈ ((View.whole main_v37).slice (win1_5.rect t)).set ↔ _
  rw [View.set_slice_whole, Rect.mem_set_unit]
  exact Iff.rfl

/-- Every index of the result array is in the block of the point (row / 1000), which writes its block back. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 50 := N_1
  have hlt : (i 0).val / 1000 < cfg1.N := by rw [hN]; omega
  obtain ⟨-, -, -, -, -, -, -, -, -, e0, e1, -⟩ := idx_facts ⟨(i 0).val / 1000, hlt⟩
  refine ⟨⟨(i 0).val / 1000, hlt⟩, flush1_5 _, ?_⟩
  rw [mem_blk]
  intro a
  match a with
  | ⟨0, _⟩ =>
    show win1_5.index ⟨(i 0).val / 1000, hlt⟩ (0 : Fin 2) * 1000 ≤ (i 0).val
      ∧ (i 0).val < win1_5.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win1_5.index ⟨(i 0).val / 1000, hlt⟩ (1 : Fin 2) * 128 ≤ (i 1).val
      ∧ (i 1).val < win1_5.index ⟨(i 0).val / 1000, hlt⟩ (1 : Fin 2) * 128 + 128
    rw [e1]; omega

/-- After the last point the result array is the layer of the arrays the region found. -/
theorem result_eq (c : Dev nD) :
    (dat1 V c).arrAt 5 cfg1.N = denseRelu (V c main_v30) (V c main_v20) (V c main_v32) (V c main_v34) (V c main_v36) :=
  (dat1 V c).arrAt_eq_of_cover 5 (denseRelu (V c main_v30) (V c main_v20) (V c main_v32) (V c main_v34) (V c main_v36))
    (fun t _ => flushed_eq V c t) covered

end Cert.GraphConv.Region1

end
-- ==== Proof.Region2.lean ====
/-
  Region 2's result array is one layer of its entry arrays.

  The pallas_call walks 50 grid points; point t reads rows 1000·t … 1000·t + 999 of the aggregated features and of the
  node features and the whole weight matrices and bias row, and writes back rows 1000·t … 1000·t + 999 of the result.
  What it writes is the layer's entries on those rows; every row of the result lies in exactly the block of point
  (row / 1000); so after the last point the result array is the layer of the arrays the region found, whatever
  they were (the statement is about any entry contents `V`).
-/
import proofs.«179025_j37091337568256_1_alg».proof.Proof.Patched.KernelIdeal.Frame
import proofs.«179025_j37091337568256_1_alg».proof.Proof.PointLayer
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.GraphConv.Region2

open Cert.KernelIdeal Cert.KernelIdeal.Gen Cert.KernelIdeal.GenP Cert.GraphConv Cert.GraphConv.Body

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The index maps over the grid: the three row-blocked windows sit at block row t, column block 0; the weight
    matrices and the bias at block 0; and there are 50 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0
    ∧ t.val < 50 :=
  (by decide +kernel : ∀ t : Fin grid2.N, _)

/-- Window 0's block at point t is rows 1000·t … of the aggregated features. -/
theorem agg_rows (c : Dev nD) (t : Fin cfg2.N) (p : Fin 1000) (k : Fin 128) (h : 1000 * t.val + p.val < 50000) :
    (iblk2 V c 0 t : Vec Ideal S1000x128 .f32) (ix2 p k)
      = (V c main_v47 : S50000x128.Idx → EReal) (ix2 (⟨1000 * t.val + p.val, h⟩ : Fin 50000) k) := by
  obtain ⟨e0, e1, -⟩ := idx_facts t
  unfold iblk2
  rw [View.read_apply]
  show V c main_v47 (((cfg2.win 0).blk t).view.emb (ix2 p k)) = V c main_v47 _
  refine congrArg (V c main_v47) (funext fun a => Fin.ext ?_)
  match a with
  | ⟨0, _⟩ => show win2_0.index t (0 : Fin 2) * 1000 + 1 * p.val = 1000 * t.val + p.val; rw [e0]; omega
  | ⟨1, _⟩ => show win2_0.index t (1 : Fin 2) * 128 + 1 * k.val = k.val; rw [e1]; omega

/-- Window 1's block at point t is rows 1000·t … of the node features. -/
theorem x_rows (c : Dev nD) (t : Fin cfg2.N) (p : Fin 1000) (k : Fin 128) (h : 1000 * t.val + p.val < 50000) :
    (iblk2 V c 1 t : Vec Ideal S1000x128 .f32) (ix2 p k)
      = (V c main_v37 : S50000x128.Idx → EReal) (ix2 (⟨1000 * t.val + p.val, h⟩ : Fin 50000) k) := by
  obtain ⟨-, -, e0, e1, -⟩ := idx_facts t
  unfold iblk2
  rw [View.read_apply]
  show V c main_v37 (((cfg2.win 1).blk t).view.emb (ix2 p k)) = V c main_v37 _
  refine congrArg (V c main_v37) (funext fun a => Fin.ext ?_)
  match a with
  | ⟨0, _⟩ => show win2_1.index t (0 : Fin 2) * 1000 + 1 * p.val = 1000 * t.val + p.val; rw [e0]; omega
  | ⟨1, _⟩ => show win2_1.index t (1 : Fin 2) * 128 + 1 * k.val = k.val; rw [e1]; omega

/-- Window 2's block is the whole neighbour weight matrix at every point. -/
theorem wrel_whole (c : Dev nD) (t : Fin cfg2.N) (k q : Fin 128) :
    (iblk2 V c 2 t : Vec Ideal S128x128 .f32) (ix2 k q) = (V c main_v49 : S128x128.Idx → EReal) (ix2 k q) := by
  obtain ⟨-, -, -, -, e0, e1, -⟩ := idx_facts t
  unfold iblk2
  rw [View.read_apply]
  show V c main_v49 (((cfg2.win 2).blk t).view.emb (ix2 k q)) = V c main_v49 _
  refine congrArg (V c main_v49) (funext fun a => Fin.ext ?_)
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- Window 3's block is the whole root weight matrix at every point. -/
theorem wroot_whole (c : Dev nD) (t : Fin cfg2.N) (k q : Fin 128) :
    (iblk2 V c 3 t : Vec Ideal S128x128 .f32) (ix2 k q) = (V c main_v51 : S128x128.Idx → EReal) (ix2 k q) := by
  obtain ⟨-, -, -, -, -, -, e0, e1, -⟩ := idx_facts t
  unfold iblk2
  rw [View.read_apply]
  show V c main_v51 (((cfg2.win 3).blk t).view.emb (ix2 k q)) = V c main_v51 _
  refine congrArg (V c main_v51) (funext fun a => Fin.ext ?_)
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- Window 4's block is the whole bias row at every point. -/
theorem bias_whole (c : Dev nD) (t : Fin cfg2.N) (q : Fin 128) :
    (iblk2 V c 4 t : Vec Ideal S128 .f32) (ix1 q) = (V c main_v53 : S128.Idx → EReal) (ix1 q) := by
  obtain ⟨-, -, -, -, -, -, -, -, e0, -⟩ := idx_facts t
  unfold iblk2
  rw [View.read_apply]
  show V c main_v53 (((cfg2.win 4).blk t).view.emb (ix1 q)) = V c main_v53 _
  refine congrArg (V c main_v53) (funext fun a => Fin.ext ?_)
  match a with
  | ⟨0, _⟩ => show win2_4.index t (0 : Fin 1) * 128 + 1 * q.val = q.val; rw [e0]; omega

/-- The stored value at a block index is the layer at the array index it is written to, for blocks that are rows of
    the arrays at row offset `r0`. -/
theorem stored_eq_layer (x0 x1 : Vec Ideal S1000x128 .f32) (x2 x3 : Vec Ideal S128x128 .f32) (x4 : Vec Ideal S128 .f32)
    (A X : FVec Ideal Nodes .f32) (Wr Wo : FVec Ideal Wt .f32) (B : FVec Ideal Bias .f32)
    (r0 : Nat) (hr0 : r0 + 1000 ≤ 50000)
    (h0 : ∀ (p : Fin 1000) (k : Fin 128), x0 (ix2 p k) = A (ix2 (⟨r0 + p.val, by omega⟩ : Fin 50000) k))
    (h1 : ∀ (p : Fin 1000) (k : Fin 128), x1 (ix2 p k) = X (ix2 (⟨r0 + p.val, by omega⟩ : Fin 50000) k))
    (h2 : ∀ (k q : Fin 128), x2 (ix2 k q) = Wr (ix2 k q)) (h3 : ∀ (k q : Fin 128), x3 (ix2 k q) = Wo (ix2 k q))
    (h4 : ∀ q : Fin 128, x4 (ix1 q) = B (ix1 q))
    (j : S1000x128.Idx) (i : Nodes.Idx) (hi0 : (i 0).val = r0 + (j 0).val) (hi1 : (i 1).val = (j 1).val) :
    k2_pay1 (F := Ideal) x0 x1 x2 x3 x4 j = dense A X Wr Wo B i := by
  obtain ⟨p, q, rfl⟩ : ∃ (p : Fin 1000) (q : Fin 128), j = ix2 p q := ⟨j 0, j 1, eq_ix2 j⟩
  have hb : r0 + p.val < 50000 := by have := p.isLt; omega
  have hi0' : (i 0).val = r0 + p.val := hi0
  have hi1' : (i 1).val = q.val := hi1
  have hi : i = ix2 (⟨r0 + p.val, hb⟩ : Fin 50000) q :=
    (eq_ix2 i).trans (congrArg₂ ix2 (Fin.ext hi0') (Fin.ext hi1'))
  rw [hi, pay2_apply, dense_ix2, pointEntry_eq_entry x0 x1 x2 x3 x4 A X Wr Wo B r0 hr0 h0 h1 h2 h3 h4 p q]

/-- What point t writes back is block t of the layer of the arrays the region found. -/
theorem flushed_eq (c : Dev nD) (t : Fin cfg2.N) :
    (dat2 V c).flushed 5 t = ((cfg2.win 5).blk t).view.read (Elt Ideal)
      (dense (V c main_v47) (V c main_v37) (V c main_v49) (V c main_v51) (V c main_v53)) := by
  show (cfg2.win 5).cut (grid2.coords t) ((dat2 V c).after 5 t) = _
  rw [after2_5]
  unfold out2_5
  rw [View.canon_unit_zero off2]
  simp only [View.ld_unit_zero (S := S1000x128) off2, View.ld_unit_zero (S := S128x128) off2, View.ld_unit_zero (S := S128) off1]
  obtain ⟨-, -, -, -, -, -, -, -, -, e0, e1, ht⟩ := idx_facts t
  funext j
  show k2_pay1 (F := Ideal) (iblk2 V c 0 t) (iblk2 V c 1 t) (iblk2 V c 2 t) (iblk2 V c 3 t) (iblk2 V c 4 t) j
    = dense (V c main_v47) (V c main_v37) (V c main_v49) (V c main_v51) (V c main_v53) (((cfg2.win 5).blk t).view.emb j)
  refine stored_eq_layer (iblk2 V c 0 t) (iblk2 V c 1 t) (iblk2 V c 2 t) (iblk2 V c 3 t) (iblk2 V c 4 t)
    (V c main_v47) (V c main_v37) (V c main_v49) (V c main_v51) (V c main_v53) (1000 * t.val) (by omega)
    (fun p k => agg_rows V c t p k (by omega)) (fun p k => x_rows V c t p k (by omega))
    (fun k q => wrel_whole V c t k q) (fun k q => wroot_whole V c t k q) (fun q => bias_whole V c t q)
    j (((cfg2.win 5).blk t).view.emb j) ?_ ?_
  · show win2_5.index t (0 : Fin 2) * 1000 + 1 * (j 0).val = 1000 * t.val + (j 0).val
    rw [e0]; omega
  · show win2_5.index t (1 : Fin 2) * 128 + 1 * (j 1).val = (j 1).val
    rw [e1]; omega

/-- An index of the result array is in point t's block iff each coordinate is in the block's range on its axis. -/
theorem mem_blk (t : Fin cfg2.N) (i : S50000x128.Idx) :
    i ∈ ((cfg2.win 5).blk t).view.set ↔ ∀ a : Fin 2, win2_5.index t a * S1000x128.size a ≤ (i a).val
      ∧ (i a).val < win2_5.index t a * S1000x128.size a + S1000x128.size a := by
  show i ∈ ((View.whole main_v54).slice (win2_5.rect t)).set ↔ _
  rw [View.set_slice_whole, Rect.mem_set_unit]
  exact Iff.rfl

/-- Every index of the result array is in the block of the point (row / 1000), which writes its block back. -/
theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 50 := N_2
  have hlt : (i 0).val / 1000 < cfg2.N := by rw [hN]; omega
  obtain ⟨-, -, -, -, -, -, -, -, -, e0, e1, -⟩ := idx_facts ⟨(i 0).val / 1000, hlt⟩
  refine ⟨⟨(i 0).val / 1000, hlt⟩, flush2_5 _, ?_⟩
  rw [mem_blk]
  intro a
  match a with
  | ⟨0, _⟩ =>
    show win2_5.index ⟨(i 0).val / 1000, hlt⟩ (0 : Fin 2) * 1000 ≤ (i 0).val
      ∧ (i 0).val < win2_5.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win2_5.index ⟨(i 0).val / 1000, hlt⟩ (1 : Fin 2) * 128 ≤ (i 1).val
      ∧ (i 1).val < win2_5.index ⟨(i 0).val / 1000, hlt⟩ (1 : Fin 2) * 128 + 128
    rw [e1]; omega

/-- After the last point the result array is the layer of the arrays the region found. -/
theorem result_eq (c : Dev nD) :
    (dat2 V c).arrAt 5 cfg2.N = dense (V c main_v47) (V c main_v37) (V c main_v49) (V c main_v51) (V c main_v53) :=
  (dat2 V c).arrAt_eq_of_cover 5 (dense (V c main_v47) (V c main_v37) (V c main_v49) (V c main_v51) (V c main_v53))
    (fun t _ => flushed_eq V c t) covered

end Cert.GraphConv.Region2

end
-- ==== Proof.Net.lean ====
/-
  The three-layer graph convolution as one function of the five argument arrays.

  The edge list's two rows are the source and the destination node of each of the 800000 edges. One aggregation gathers
  the feature row of every edge's source node (a negative index is first moved up by the number of nodes, as jnp
  does) and adds the rows of the edges landing on each destination node into an array of zeros. Layer l takes the
  aggregation of the current features, the current features, and slice l of the stacked weights and biases; the first
  two layers are rectified and feed the next one. The aggregation is never opened in this proof: both programs apply
  the very same host operations there, so it is carried as one function of its operands.
-/
import proofs.«179025_j37091337568256_1_alg».proof.Proof.Gen.KernelIdeal
import proofs.«179025_j37091337568256_1_alg».proof.Proof.Layer

noncomputable section

namespace Cert.GraphConv

open Idealize.ShloMosaic Cert.KernelIdeal Cert.KernelIdeal.Gen

/-- The edge list, the stacked weights, the stacked biases, a flat column of 800000 node indices. -/
abbrev EdgeList : Type := IVec S2x800000 32
abbrev NodeIds : Type := IVec S800000 32
abbrev Features : Type := FVec Ideal S50000x128 .f32
abbrev WeightStack : Type := FVec Ideal S3x128x128 .f32
abbrev BiasStack : Type := FVec Ideal S3x128 .f32

/-- Row 0 of the edge list: each edge's source node. -/
def srcOf (ei : EdgeList) : NodeIds :=
  shapeCast S800000 (extractStridedSlice S1x800000 ![0, 0] ei slices_S2x800000_S1x800000_0_0) shapeCasts_S1x800000_S800000

/-- Row 1 of the edge list: each edge's destination node. -/
def dstOf (ei : EdgeList) : NodeIds :=
  shapeCast S800000 (extractStridedSlice S1x800000 ![1, 0] ei slices_S2x800000_S1x800000_1_0) shapeCasts_S1x800000_S800000

/-- The aggregation: rows of `X` gathered at the (normalised) source nodes, added up per destination node into zeros. -/
def aggregate (X : Features) (src dst : NodeIds) : Features :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 X
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Slice l of a weight stack, as a 128 × 128 matrix. -/
def weight0 (w : WeightStack) : FVec Ideal S128x128 .f32 :=
  shapeCast S128x128 (extractStridedSlice S1x128x128 ![0, 0, 0] w slices_S3x128x128_S1x128x128_0_0_0) shapeCasts_S1x128x128_S128x128
def weight1 (w : WeightStack) : FVec Ideal S128x128 .f32 :=
  shapeCast S128x128 (extractStridedSlice S1x128x128 ![1, 0, 0] w slices_S3x128x128_S1x128x128_1_0_0) shapeCasts_S1x128x128_S128x128
def weight2 (w : WeightStack) : FVec Ideal S128x128 .f32 :=
  shapeCast S128x128 (extractStridedSlice S1x128x128 ![2, 0, 0] w slices_S3x128x128_S1x128x128_2_0_0) shapeCasts_S1x128x128_S128x128

/-- Row l of the bias stack. -/
def bias0 (b : BiasStack) : FVec Ideal S128 .f32 :=
  shapeCast S128 (extractStridedSlice S1x128 ![0, 0] b slices_S3x128_S1x128_0_0) shapeCasts_S1x128_S128
def bias1 (b : BiasStack) : FVec Ideal S128 .f32 :=
  shapeCast S128 (extractStridedSlice S1x128 ![1, 0] b slices_S3x128_S1x128_1_0) shapeCasts_S1x128_S128
def bias2 (b : BiasStack) : FVec Ideal S128 .f32 :=
  shapeCast S128 (extractStridedSlice S1x128 ![2, 0] b slices_S3x128_S1x128_2_0) shapeCasts_S1x128_S128

/-- The features after the first (rectified) layer. -/
def hidden1 (x : Features) (ei : EdgeList) (wr wo : WeightStack) (b : BiasStack) : Features :=
  denseRelu (aggregate x (srcOf ei) (dstOf ei)) x (weight0 wr) (weight0 wo) (bias0 b)

/-- The features after the second (rectified) layer. -/
def hidden2 (x : Features) (ei : EdgeList) (wr wo : WeightStack) (b : BiasStack) : Features :=
  denseRelu (aggregate (hidden1 x ei wr wo b) (srcOf ei) (dstOf ei)) (hidden1 x ei wr wo b) (weight1 wr) (weight1 wo) (bias1 b)

/-- The network's output: the third layer, not rectified. -/
def output (x : Features) (ei : EdgeList) (wr wo : WeightStack) (b : BiasStack) : Features :=
  dense (aggregate (hidden2 x ei wr wo b) (srcOf ei) (dstOf ei)) (hidden2 x ei wr wo b) (weight2 wr) (weight2 wo) (bias2 b)

end Cert.GraphConv

end
-- ==== Proof.KernelValue.lean ====
/-
  The idealized kernel program's result array is the network's output of the argument arrays.

  The program's buffers are followed through its six boundaries. The first stretch of host operations cuts the edge
  list into its source and destination columns, aggregates the input features, and slices layer 0's weights and bias;
  region 0 then leaves the first hidden features in its result array and touches nothing else. The second stretch
  aggregates those (with the same two columns, still where the first stretch put them) and slices layer 1's
  parameters out of the untouched arguments; region 1 leaves the second hidden features; the third stretch and region
  2 do the same for the last layer. At every step the only facts used are which buffer an operation writes and that a
  region's result array is the layer of the arrays it found.
-/
import proofs.«179025_j37091337568256_1_alg».proof.Proof.Patched.KernelIdeal.Frame
import proofs.«179025_j37091337568256_1_alg».proof.Proof.Region0
import proofs.«179025_j37091337568256_1_alg».proof.Proof.Region1
import proofs.«179025_j37091337568256_1_alg».proof.Proof.Region2
import proofs.«179025_j37091337568256_1_alg».proof.Proof.Net
import Idealize.ShloMosaic.Lib.StableHlo.Run

noncomputable section

namespace Cert.GraphConv.Chain

open Idealize.ShloMosaic Idealize.ShloMosaic.TcCoe Idealize.SL.Sem Idealize.ShloMosaic.StableHlo
open Cert.KernelIdeal Cert.KernelIdeal.Gen Cert.KernelIdeal.GenP Cert.GraphConv

variable (m : (ℓ : Loc nD τ sig) → Buf (Elt Ideal) ℓ) (ρ : Dev nD → PrngReg)

/-- The five argument arrays as launched, on core `c`. -/
abbrev argX (c : Dev nD) : Features := m ((c.tc : Thread nD τ).loc main_arg0)
abbrev argE (c : Dev nD) : EdgeList := m ((c.tc : Thread nD τ).loc main_arg1)
abbrev argWr (c : Dev nD) : WeightStack := m ((c.tc : Thread nD τ).loc main_arg2)
abbrev argWo (c : Dev nD) : WeightStack := m ((c.tc : Thread nD τ).loc main_arg3)
abbrev argB (c : Dev nD) : BiasStack := m ((c.tc : Thread nD τ).loc main_arg4)

/-! ## After the first stretch of host operations -/

theorem at1_agg (c : Dev nD) : W1 m ρ c (Proc.devRef .tc main_v13)
    = aggregate (argX m c) (srcOf (argE m c)) (dstOf (argE m c)) := by
  show StableHlo.after hostOps0 (W0 m ρ c) (Proc.devRef .tc main_v13) = _
  dsimp only [hostOps0]
  after_results
  rfl

theorem at1_x (c : Dev nD) : W1 m ρ c (Proc.devRef .tc main_arg0) = argX m c := by
  show StableHlo.after hostOps0 (W0 m ρ c) (Proc.devRef .tc main_arg0) = _
  dsimp only [hostOps0]
  after_results

theorem at1_wrel (c : Dev nD) : W1 m ρ c (Proc.devRef .tc main_v15) = weight0 (argWr m c) := by
  show StableHlo.after hostOps0 (W0 m ρ c) (Proc.devRef .tc main_v15) = _
  dsimp only [hostOps0]
  after_results
  rfl

theorem at1_wroot (c : Dev nD) : W1 m ρ c (Proc.devRef .tc main_v17) = weight0 (argWo m c) := by
  show StableHlo.after hostOps0 (W0 m ρ c) (Proc.devRef .tc main_v17) = _
  dsimp only [hostOps0]
  after_results
  rfl

theorem at1_bias (c : Dev nD) : W1 m ρ c (Proc.devRef .tc main_v19) = bias0 (argB m c) := by
  show StableHlo.after hostOps0 (W0 m ρ c) (Proc.devRef .tc main_v19) = _
  dsimp only [hostOps0]
  after_results
  rfl

theorem at1_src (c : Dev nD) : W1 m ρ c (Proc.devRef .tc main_v1) = srcOf (argE m c) := by
  show StableHlo.after hostOps0 (W0 m ρ c) (Proc.devRef .tc main_v1) = _
  dsimp only [hostOps0]
  after_results
  rfl

theorem at1_dst (c : Dev nD) : W1 m ρ c (Proc.devRef .tc main_v3) = dstOf (argE m c) := by
  show StableHlo.after hostOps0 (W0 m ρ c) (Proc.devRef .tc main_v3) = _
  dsimp only [hostOps0]
  after_results
  rfl

theorem at1_argWr (c : Dev nD) : W1 m ρ c (Proc.devRef .tc main_arg2) = argWr m c := by
  show StableHlo.after hostOps0 (W0 m ρ c) (Proc.devRef .tc main_arg2) = _
  dsimp only [hostOps0]
  after_results

theorem at1_argWo (c : Dev nD) : W1 m ρ c (Proc.devRef .tc main_arg3) = argWo m c := by
  show StableHlo.after hostOps0 (W0 m ρ c) (Proc.devRef .tc main_arg3) = _
  dsimp only [hostOps0]
  after_results

theorem at1_argB (c : Dev nD) : W1 m ρ c (Proc.devRef .tc main_arg4) = argB m c := by
  show StableHlo.after hostOps0 (W0 m ρ c) (Proc.devRef .tc main_arg4) = _
  dsimp only [hostOps0]
  after_results

/-! ## After region 0: the first hidden features, everything else as before -/

theorem at2_hidden (c : Dev nD) : W2 m ρ c (Proc.devRef .tc main_v20)
    = hidden1 (argX m c) (argE m c) (argWr m c) (argWo m c) (argB m c) := by
  refine (W2_arr m ρ c 5).trans ?_
  refine (Cert.GraphConv.Region0.result_eq (V1 m ρ) c).trans ?_
  show denseRelu (W1 m ρ c (Proc.devRef .tc main_v13)) (W1 m ρ c (Proc.devRef .tc main_arg0))
      (W1 m ρ c (Proc.devRef .tc main_v15)) (W1 m ρ c (Proc.devRef .tc main_v17)) (W1 m ρ c (Proc.devRef .tc main_v19)) = _
  rw [at1_agg, at1_x, at1_wrel, at1_wroot, at1_bias]
  rfl

theorem at2_src (c : Dev nD) : W2 m ρ c (Proc.devRef .tc main_v1) = srcOf (argE m c) :=
  (W2_of_ne m ρ c main_v1 (by decide)).trans (at1_src m ρ c)
theorem at2_dst (c : Dev nD) : W2 m ρ c (Proc.devRef .tc main_v3) = dstOf (argE m c) :=
  (W2_of_ne m ρ c main_v3 (by decide)).trans (at1_dst m ρ c)
theorem at2_argWr (c : Dev nD) : W2 m ρ c (Proc.devRef .tc main_arg2) = argWr m c :=
  (W2_of_ne m ρ c main_arg2 (by decide)).trans (at1_argWr m ρ c)
theorem at2_argWo (c : Dev nD) : W2 m ρ c (Proc.devRef .tc main_arg3) = argWo m c :=
  (W2_of_ne m ρ c main_arg3 (by decide)).trans (at1_argWo m ρ c)
theorem at2_argB (c : Dev nD) : W2 m ρ c (Proc.devRef .tc main_arg4) = argB m c :=
  (W2_of_ne m ρ c main_arg4 (by decide)).trans (at1_argB m ρ c)

/-! ## After the second stretch of host operations -/

theorem at3_agg (c : Dev nD) : W3 m ρ c (Proc.devRef .tc main_v30)
    = aggregate (hidden1 (argX m c) (argE m c) (argWr m c) (argWo m c) (argB m c)) (srcOf (argE m c)) (dstOf (argE m c)) := by
  show StableHlo.after hostOps1 (W2 m ρ c) (Proc.devRef .tc main_v30) = _
  dsimp only [hostOps1]
  after_results
  rw [at2_hidden, at2_src, at2_dst]
  rfl

theorem at3_x (c : Dev nD) : W3 m ρ c (Proc.devRef .tc main_v20)
    = hidden1 (argX m c) (argE m c) (argWr m c) (argWo m c) (argB m c) := by
  show StableHlo.after hostOps1 (W2 m ρ c) (Proc.devRef .tc main_v20) = _
  dsimp only [hostOps1]
  after_results
  exact at2_hidden m ρ c

theorem at3_wrel (c : Dev nD) : W3 m ρ c (Proc.devRef .tc main_v32) = weight1 (argWr m c) := by
  show StableHlo.after hostOps1 (W2 m ρ c) (Proc.devRef .tc main_v32) = _
  dsimp only [hostOps1]
  after_results
  rw [at2_argWr]
  rfl

theorem at3_wroot (c : Dev nD) : W3 m ρ c (Proc.devRef .tc main_v34) = weight1 (argWo m c) := by
  show StableHlo.after hostOps1 (W2 m ρ c) (Proc.devRef .tc main_v34) = _
  dsimp only [hostOps1]
  after_results
  rw [at2_argWo]
  rfl

theorem at3_bias (c : Dev nD) : W3 m ρ c (Proc.devRef .tc main_v36) = bias1 (argB m c) := by
  show StableHlo.after hostOps1 (W2 m ρ c) (Proc.devRef .tc main_v36) = _
  dsimp only [hostOps1]
  after_results
  rw [at2_argB]
  rfl

theorem at3_src (c : Dev nD) : W3 m ρ c (Proc.devRef .tc main_v1) = srcOf (argE m c) := by
  show StableHlo.after hostOps1 (W2 m ρ c) (Proc.devRef .tc main_v1) = _
  dsimp only [hostOps1]
  after_results
  exact at2_src m ρ c

theorem at3_dst (c : Dev nD) : W3 m ρ c (Proc.devRef .tc main_v3) = dstOf (argE m c) := by
  show StableHlo.after hostOps1 (W2 m ρ c) (Proc.devRef .tc main_v3) = _
  dsimp only [hostOps1]
  after_results
  exact at2_dst m ρ c

theorem at3_argWr (c : Dev nD) : W3 m ρ c (Proc.devRef .tc main_arg2) = argWr m c := by
  show StableHlo.after hostOps1 (W2 m ρ c) (Proc.devRef .tc main_arg2) = _
  dsimp only [hostOps1]
  after_results
  exact at2_argWr m ρ c

theorem at3_argWo (c : Dev nD) : W3 m ρ c (Proc.devRef .tc main_arg3) = argWo m c := by
  show StableHlo.after hostOps1 (W2 m ρ c) (Proc.devRef .tc main_arg3) = _
  dsimp only [hostOps1]
  after_results
  exact at2_argWo m ρ c

theorem at3_argB (c : Dev nD) : W3 m ρ c (Proc.devRef .tc main_arg4) = argB m c := by
  show StableHlo.after hostOps1 (W2 m ρ c) (Proc.devRef .tc main_arg4) = _
  dsimp only [hostOps1]
  after_results
  exact at2_argB m ρ c

/-! ## After region 1: the second hidden features, everything else as before -/

theorem at4_hidden (c : Dev nD) : W4 m ρ c (Proc.devRef .tc main_v37)
    = hidden2 (argX m c) (argE m c) (argWr m c) (argWo m c) (argB m c) := by
  refine (W4_arr m ρ c 5).trans ?_
  refine (Cert.GraphConv.Region1.result_eq (V3 m ρ) c).trans ?_
  show denseRelu (W3 m ρ c (Proc.devRef .tc main_v30)) (W3 m ρ c (Proc.devRef .tc main_v20))
      (W3 m ρ c (Proc.devRef .tc main_v32)) (W3 m ρ c (Proc.devRef .tc main_v34)) (W3 m ρ c (Proc.devRef .tc main_v36)) = _
  rw [at3_agg, at3_x, at3_wrel, at3_wroot, at3_bias]
  rfl

theorem at4_src (c : Dev nD) : W4 m ρ c (Proc.devRef .tc main_v1) = srcOf (argE m c) :=
  (W4_of_ne m ρ c main_v1 (by decide)).trans (at3_src m ρ c)
theorem at4_dst (c : Dev nD) : W4 m ρ c (Proc.devRef .tc main_v3) = dstOf (argE m c) :=
  (W4_of_ne m ρ c main_v3 (by decide)).trans (at3_dst m ρ c)
theorem at4_argWr (c : Dev nD) : W4 m ρ c (Proc.devRef .tc main_arg2) = argWr m c :=
  (W4_of_ne m ρ c main_arg2 (by decide)).trans (at3_argWr m ρ c)
theorem at4_argWo (c : Dev nD) : W4 m ρ c (Proc.devRef .tc main_arg3) = argWo m c :=
  (W4_of_ne m ρ c main_arg3 (by decide)).trans (at3_argWo m ρ c)
theorem at4_argB (c : Dev nD) : W4 m ρ c (Proc.devRef .tc main_arg4) = argB m c :=
  (W4_of_ne m ρ c main_arg4 (by decide)).trans (at3_argB m ρ c)

/-! ## After the third stretch of host operations -/

theorem at5_agg (c : Dev nD) : W5 m ρ c (Proc.devRef .tc main_v47)
    = aggregate (hidden2 (argX m c) (argE m c) (argWr m c) (argWo m c) (argB m c)) (srcOf (argE m c)) (dstOf (argE m c)) := by
  show StableHlo.after hostOps2 (W4 m ρ c) (Proc.devRef .tc main_v47) = _
  dsimp only [hostOps2]
  after_results
  rw [at4_hidden, at4_src, at4_dst]
  rfl

theorem at5_x (c : Dev nD) : W5 m ρ c (Proc.devRef .tc main_v37)
    = hidden2 (argX m c) (argE m c) (argWr m c) (argWo m c) (argB m c) := by
  show StableHlo.after hostOps2 (W4 m ρ c) (Proc.devRef .tc main_v37) = _
  dsimp only [hostOps2]
  after_results
  exact at4_hidden m ρ c

theorem at5_wrel (c : Dev nD) : W5 m ρ c (Proc.devRef .tc main_v49) = weight2 (argWr m c) := by
  show StableHlo.after hostOps2 (W4 m ρ c) (Proc.devRef .tc main_v49) = _
  dsimp only [hostOps2]
  after_results
  rw [at4_argWr]
  rfl

theorem at5_wroot (c : Dev nD) : W5 m ρ c (Proc.devRef .tc main_v51) = weight2 (argWo m c) := by
  show StableHlo.after hostOps2 (W4 m ρ c) (Proc.devRef .tc main_v51) = _
  dsimp only [hostOps2]
  after_results
  rw [at4_argWo]
  rfl

theorem at5_bias (c : Dev nD) : W5 m ρ c (Proc.devRef .tc main_v53) = bias2 (argB m c) := by
  show StableHlo.after hostOps2 (W4 m ρ c) (Proc.devRef .tc main_v53) = _
  dsimp only [hostOps2]
  after_results
  rw [at4_argB]
  rfl

/-! ## After region 2: the result -/

/-- The result array at the last boundary is the network's output of the argument arrays as launched. -/
theorem result_eq (c : Dev nD) : W6 m ρ c (Proc.devRef .tc main_v54)
    = output (argX m c) (argE m c) (argWr m c) (argWo m c) (argB m c) := by
  refine (W6_arr m ρ c 5).trans ?_
  refine (Cert.GraphConv.Region2.result_eq (V5 m ρ) c).trans ?_
  show dense (W5 m ρ c (Proc.devRef .tc main_v47)) (W5 m ρ c (Proc.devRef .tc main_v37))
      (W5 m ρ c (Proc.devRef .tc main_v49)) (W5 m ρ c (Proc.devRef .tc main_v51)) (W5 m ρ c (Proc.devRef .tc main_v53)) = _
  rw [at5_agg, at5_x, at5_wrel, at5_wroot, at5_bias]
  rfl

end Cert.GraphConv.Chain

end
-- ==== Proof.LibDense.lean ====
/-
  Dense layers read at an entry.

  At the exact instance a host matrix product (`stablehlo.dot_general`) of an M × K by a K × N matrix, one contracted axis
  and no batch axis, is at entry (y, j) the sum over k of a[y, k] · w[k, j]: the contraction index re-read as its one
  coordinate, the operand indices by their coordinates, which are taken as hypotheses (for a concrete record each is a
  computation). Three blocks of equally many columns laid side by side read, in a column of the k-th block, that block at
  the column less the blocks before it; a block of columns cut out of a matrix reads the matrix at the column moved by the
  block's offset. The maximum over a finite family started from a value is that value when taken once more against it.
-/
import Idealize.ShloMosaic.PureOps.Ideal.Laws
import Idealize.ShloMosaic.Lib.ValueIdx
import Idealize.ShloMosaic.Lib.Pipeline.Value

noncomputable section

open scoped BigOperators

namespace Cert.LibDense

open Idealize.ShloMosaic Idealize.ShloMosaic.ValueIdx

/-- Entry (y, j) of the host product of an M × K by a K × N matrix is `Σₖ a (y, k) · w (k, j)`, k over `Fin K`. Nothing of
    real arithmetic is used, so it holds with infinite entries too. -/
theorem hostDot_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    Host.dotGeneral d prec a w (ix2 y j) = ∑ k : Fin K, a (ix2 y k) * w (ix2 k j) := by
  show FloatOps.dotGeneral d prec .single a w (ix2 y j) = _
  rw [Ideal.dotGeneral_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

/-- A block of `b` columns cut out of an `a × n` matrix at column offset `o` reads, at `(p, q)`, the matrix at
    `(p, o + q)`. -/
theorem sliceCols_apply {α : Type} {a n b : Nat} (o : Nat) (x : (⟨2, ![a, n]⟩ : Shape).Idx → α)
    (h : (⟨2, ![a, n]⟩ : Shape).Slices ![0, o] ⟨2, ![a, b]⟩) (p : Fin a) (q : Fin b) (hq : o + q.val < n) :
    extractStridedSlice ⟨2, ![a, b]⟩ ![0, o] x h (ix2 p q) = x (ix2 p ⟨o + q.val, hq⟩) :=
  extractStridedSlice_apply _ x h _ _ fun c => by
    match c with
    | ⟨0, _⟩ => show p.val = 0 + p.val; omega
    | ⟨1, _⟩ => rfl

/-- Taking the maximum once more against the value a running maximum started from changes nothing. -/
theorem max_fold_max_self {ι : Type} (s : Finset ι) (a : EReal) (f : ι → EReal) :
    max a (s.fold max a f) = s.fold max a f :=
  max_eq_right (Finset.le_fold_max a |>.mpr (Or.inl le_rfl))

end Cert.LibDense

end
-- ==== Proof.RefValue.lean ====
/-
  The reference program computes the same three layers.

  The reference applies, per layer, the same host operations for the aggregation (they are carried unopened) and then
  two whole 50000 × 128 by 128 × 128 matrix products, their sum, the bias row repeated down the rows, and for the first
  two layers the maximum with a zero array. Entry (p, q) of a whole product is Σₖ a[p, k] · w[k, q] over the extended
  reals; the repeated bias reads b[q]; the zero array reads the float zero. So each layer of the reference is the
  layer function of its operands, and its result is the network's output of the argument arrays.
-/
import proofs.«179025_j37091337568256_1_alg».proof.Proof.Gen.ReferenceIdeal.Read
import proofs.«179025_j37091337568256_1_alg».proof.Proof.LibDense
import proofs.«179025_j37091337568256_1_alg».proof.Proof.Net
import Idealize.ShloMosaic.PureOps.Ideal.Laws
import Idealize.ShloMosaic.Lib.ValueIdx
import Idealize.ShloMosaic.Lib.Pipeline.Value

noncomputable section

open scoped BigOperators

namespace Cert.GraphConv.Ref

open Idealize.ShloMosaic Idealize.ShloMosaic.ValueIdx Cert.GraphConv
open Cert.ReferenceIdeal Cert.ReferenceIdeal.Gen Cert.ReferenceIdeal.Read

/-- The reference's one product shape: the whole 50000 × 128 array times a 128 × 128 matrix, columns against rows. -/
abbrev wholeDot : DotDims S50000x128 S128x128 S50000x128 := dot_S50000x128_S128x128_S50000x128_1_0_0_1_n_n

/-- A whole product at row p and column q is the sum over the 128 feature columns. -/
theorem wholeProduct_apply (a : FVec Ideal S50000x128 .f32) (w : FVec Ideal S128x128 .f32) (p : Fin 50000) (q : Fin 128) :
    Host.dotGeneral (F := Ideal) wholeDot none a w (ix2 p q) = ∑ k : Fin 128, a (ix2 p k) * w (ix2 k q) :=
  Cert.LibDense.hostDot_ix2_apply wholeDot rfl rfl lhs_main_v16_0 lhs_main_v16_1 rhs_main_v16_0 rhs_main_v16_1 none a w p q

/-- The bias row, recast as 1 × 128 and repeated down the 50000 rows, reads the bias at the column. -/
theorem biasRows_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The zero array reads the float zero everywhere. -/
theorem zeros_apply (i : S50000x128.Idx) :
    broadcastInDim S50000x128 ![] bcast_S_S50000x128 (constant (F := Ideal) S_ .f32 0x00000000#32) i
      = Ideal.ofBits .f32 0x00000000#32 :=
  broadcastInDim_apply _ bcast_S_S50000x128 _ i (fun a => a.elim0) (fun a => a.elim0)

/-- A rectified layer of the reference, over any operands, is the rectified layer function. -/
theorem rectified_eq (agg x : FVec Ideal S50000x128 .f32) (wrel wroot : FVec Ideal S128x128 .f32) (b : FVec Ideal S128 .f32) :
    maximumf (addf (addf (Host.dotGeneral (F := Ideal) wholeDot none agg wrel) (Host.dotGeneral (F := Ideal) wholeDot none x wroot))
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
      = denseRelu agg x wrel wroot b := by
  funext i
  obtain ⟨p, q, rfl⟩ : ∃ (p : Fin 50000) (q : Fin 128), i = ix2 p q := ⟨i 0, i 1, eq_ix2 i⟩
  rw [denseRelu_ix2, maximumf_apply, addf_apply, addf_apply, wholeProduct_apply, wholeProduct_apply, biasRows_apply, zeros_apply]
  rfl

/-- The last layer of the reference, over any operands, is the plain layer function. -/
theorem plain_eq (agg x : FVec Ideal S50000x128 .f32) (wrel wroot : FVec Ideal S128x128 .f32) (b : FVec Ideal S128 .f32) :
    addf (addf (Host.dotGeneral (F := Ideal) wholeDot none agg wrel) (Host.dotGeneral (F := Ideal) wholeDot none x wroot))
        (broadcastInDim S50000x128 ![0, 1] bcast_S1x128_S50000x128_0_1 (broadcastInDim S1x128 ![1] bcast_S128_S1x128_1 b))
      = dense agg x wrel wroot b := by
  funext i
  obtain ⟨p, q, rfl⟩ : ∃ (p : Fin 50000) (q : Fin 128), i = ix2 p q := ⟨i 0, i 1, eq_ix2 i⟩
  rw [dense_ix2, addf_apply, addf_apply, wholeProduct_apply, wholeProduct_apply, biasRows_apply]
  rfl

section Stages

variable (x0 : (⟨S50000x128, .f32⟩ : BufTy).Contents (Elt Ideal)) (x1 : (⟨S2x800000, .i32⟩ : BufTy).Contents (Elt Ideal))
  (x2 x3 : (⟨S3x128x128, .f32⟩ : BufTy).Contents (Elt Ideal)) (x4 : (⟨S3x128, .f32⟩ : BufTy).Contents (Elt Ideal))

/-- The reference's source and destination columns, weight slices and bias rows are the network's. -/
theorem src_eq : val_main_v1 (F := Ideal) x1 = srcOf x1 := rfl
theorem dst_eq : val_main_v3 (F := Ideal) x1 = dstOf x1 := rfl
theorem wrel0_eq : val_main_v15 (F := Ideal) x2 = weight0 x2 := rfl
theorem wroot0_eq : val_main_v18 (F := Ideal) x3 = weight0 x3 := rfl
theorem b0_eq : val_main_v22 (F := Ideal) x4 = bias0 x4 := rfl
theorem wrel1_eq : val_main_v38 (F := Ideal) x2 = weight1 x2 := rfl
theorem wroot1_eq : val_main_v41 (F := Ideal) x3 = weight1 x3 := rfl
theorem b1_eq : val_main_v45 (F := Ideal) x4 = bias1 x4 := rfl
theorem wrel2_eq : val_main_v61 (F := Ideal) x2 = weight2 x2 := rfl
theorem wroot2_eq : val_main_v64 (F := Ideal) x3 = weight2 x3 := rfl
theorem b2_eq : val_main_v68 (F := Ideal) x4 = bias2 x4 := rfl

/-- Each of the reference's three aggregations is the network's aggregation of the features it is applied to. -/
theorem agg1_eq : val_main_v13 (F := Ideal) x0 x1 = aggregate x0 (val_main_v1 (F := Ideal) x1) (val_main_v3 (F := Ideal) x1) := rfl
theorem agg2_eq : val_main_v36 (F := Ideal) x0 x1 x2 x3 x4
    = aggregate (val_main_v26 (F := Ideal) x0 x1 x2 x3 x4) (val_main_v1 (F := Ideal) x1) (val_main_v3 (F := Ideal) x1) := rfl
theorem agg3_eq : val_main_v59 (F := Ideal) x0 x1 x2 x3 x4
    = aggregate (val_main_v49 (F := Ideal) x0 x1 x2 x3 x4) (val_main_v1 (F := Ideal) x1) (val_main_v3 (F := Ideal) x1) := rfl

/-- The reference's three dense stages, each as the layer function of its operands. -/
theorem layer1_eq : val_main_v26 (F := Ideal) x0 x1 x2 x3 x4
    = denseRelu (val_main_v13 (F := Ideal) x0 x1) x0 (val_main_v15 (F := Ideal) x2) (val_main_v18 (F := Ideal) x3) (val_main_v22 (F := Ideal) x4) := by
  unfold val_main_v26 val_main_v25 val_main_v20 val_main_v16 val_main_v19 val_main_v24 val_main_v23 val_main_call0_v0 val_main_call0_cst
  exact rectified_eq _ _ _ _ _

theorem layer2_eq : val_main_v49 (F := Ideal) x0 x1 x2 x3 x4
    = denseRelu (val_main_v36 (F := Ideal) x0 x1 x2 x3 x4) (val_main_v26 (F := Ideal) x0 x1 x2 x3 x4)
        (val_main_v38 (F := Ideal) x2) (val_main_v41 (F := Ideal) x3) (val_main_v45 (F := Ideal) x4) := by
  unfold val_main_v49 val_main_v48 val_main_v43 val_main_v39 val_main_v42 val_main_v47 val_main_v46 val_main_call1_v0 val_main_call1_cst
  exact rectified_eq _ _ _ _ _

theorem layer3_eq : val_main_v71 (F := Ideal) x0 x1 x2 x3 x4
    = dense (val_main_v59 (F := Ideal) x0 x1 x2 x3 x4) (val_main_v49 (F := Ideal) x0 x1 x2 x3 x4)
        (val_main_v61 (F := Ideal) x2) (val_main_v64 (F := Ideal) x3) (val_main_v68 (F := Ideal) x4) := by
  unfold val_main_v71 val_main_v66 val_main_v62 val_main_v65 val_main_v70 val_main_v69
  exact plain_eq _ _ _ _ _

/-- The reference's features after its first, second and last layer are the network's. -/
theorem hidden1_eq : val_main_v26 (F := Ideal) x0 x1 x2 x3 x4 = hidden1 x0 x1 x2 x3 x4 := by
  unfold hidden1
  rw [layer1_eq, agg1_eq, src_eq, dst_eq, wrel0_eq, wroot0_eq, b0_eq]

theorem hidden2_eq : val_main_v49 (F := Ideal) x0 x1 x2 x3 x4 = hidden2 x0 x1 x2 x3 x4 := by
  unfold hidden2
  rw [layer2_eq, agg2_eq, hidden1_eq, src_eq, dst_eq, wrel1_eq, wroot1_eq, b1_eq]

theorem output_eq : val_main_v71 (F := Ideal) x0 x1 x2 x3 x4 = output x0 x1 x2 x3 x4 := by
  unfold output
  rw [layer3_eq, agg3_eq, hidden2_eq, src_eq, dst_eq, wrel2_eq, wroot2_eq, b2_eq]

end Stages

end Cert.GraphConv.Ref

end
-- ==== Proof.lean ====
/-
  A three-layer graph convolution (PyG GraphConv, sum aggregation) on 50000 nodes, 800000 edges and 128 features: the
  kernel program runs each layer's dense part — agg · W_rel + x · W_root + b, rectified on the first two layers — as a
  pallas_call over 50 row blocks of 1000 nodes, with bf16-rounded operands; the reference runs it as two whole matrix
  products on the host. The aggregation (a gather at the edges' source nodes, a scatter-add at their destinations) is
  the same host computation in both programs.

  Over the extended reals the two programs are the same function of the arguments, entry by entry: rounding to a
  narrower float format is the identity; a matrix product accumulated into zeros and a host matrix product are both
  the sum over the 128 contracted columns, whatever the blocking of the rows; the three sums are grouped alike on
  both sides, (Σ + Σ) + b; and both take the maximum with the same zero. No distributivity or cancellation is needed,
  so the finiteness of the inputs is never used. The ideal pass rewrote nothing, so the kernel's idealization is its
  own text. Each program terminates without a fault and leaves its arguments as launched.
-/
import proofs.«179025_j37091337568256_1_alg».proof.Defs
import proofs.«179025_j37091337568256_1_alg».proof.Proof.Gen.Kernel
import proofs.«179025_j37091337568256_1_alg».proof.Proof.Gen.KernelIdeal
import proofs.«179025_j37091337568256_1_alg».proof.Proof.Gen.ReferenceIdeal
import proofs.«179025_j37091337568256_1_alg».proof.Proof.Gen.Pre_finite_inputs
import proofs.«179025_j37091337568256_1_alg».proof.Proof.Gen.ReferenceIdeal.Run
import proofs.«179025_j37091337568256_1_alg».proof.Proof.Gen.ReferenceIdeal.Read
import proofs.«179025_j37091337568256_1_alg».proof.Proof.Patched.Kernel.Frame
import proofs.«179025_j37091337568256_1_alg».proof.Proof.Patched.KernelIdeal.Frame
import proofs.«179025_j37091337568256_1_alg».proof.Proof.KernelRun
import proofs.«179025_j37091337568256_1_alg».proof.Proof.KernelValue
import proofs.«179025_j37091337568256_1_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the network's output of the (agreeing) argument arrays in their result. -/
theorem algebraic : Cert.algebraic_KernelIdeal_ReferenceIdeal := by
  intro m ρ m' ρ' _ hagree
  refine ⟨fun c => Cert.GraphConv.output (Cert.GraphConv.Chain.argX m c) (Cert.GraphConv.Chain.argE m c)
    (Cert.GraphConv.Chain.argWr m c) (Cert.GraphConv.Chain.argWo m c) (Cert.GraphConv.Chain.argB m c), ?_, ?_⟩
  · exact (θ_run Cert.KernelIdeal.defs _ _).mono
      (fun r h c => ⟨(h c).1.trans (Cert.GraphConv.Chain.result_eq m ρ c), (h c).2⟩)
      (Cert.GraphConv.Run.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v71_eq m' c).trans ((Cert.GraphConv.Ref.output_eq _ _ _ _ _).trans ?_)
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
